-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x2 : Shape := ⟨2, ![1600000, 2]⟩
abbrev S1600000 : Shape := ⟨1, ![1600000]⟩
abbrev S1600000x64 : Shape := ⟨2, ![1600000, 64]⟩
abbrev S100000x1 : Shape := ⟨2, ![100000, 1]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S100000x1 : S_.BroadcastsInDim S100000x1 (![] : Fin 0 → Fin S100000x1.rank)
  reducesTo_S100000x1_S_d0_1 : S100000x1.ReducesTo [0, 1] S_

variable [Facts]

def fn {F : FTy → Type} [FloatOps F] (main_arg0 : IVec S1600000x2 32) (main_arg1 : FVec F S1600000 .f32) (main_arg2 : FVec F S1600000x64 .f32) (main_arg3 : FVec F S100000x1 .f32) : IVec S_ 1 :=
  let main_v0 : FVec F S1600000 .f32 := Host.absf main_arg1
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S1600000x64 .f32 := Host.absf main_arg2
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S100000x1 .f32 := Host.absf main_arg3
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  main_v13
-- ==== Kernel.lean ====
abbrev S1600000x2 : Shape := ⟨2, ![1600000, 2]⟩
abbrev S1600000 : Shape := ⟨1, ![1600000]⟩
abbrev S1600000x64 : Shape := ⟨2, ![1600000, 64]⟩
abbrev S100000x1 : Shape := ⟨2, ![100000, 1]⟩
abbrev S1600000x1 : Shape := ⟨2, ![1600000, 1]⟩
abbrev S_ : Shape := ⟨0, ![]⟩
abbrev S100000x64 : Shape := ⟨2, ![100000, 64]⟩
abbrev S50000x128 : Shape := ⟨2, ![50000, 128]⟩
abbrev S50000x2x1 : Shape := ⟨3, ![50000, 2, 1]⟩
abbrev S50000x2x64 : Shape := ⟨3, ![50000, 2, 64]⟩
abbrev S10000x128 : Shape := ⟨2, ![10000, 128]⟩

abbrev nBuf : Space → Nat
  | .hbm => 19
  | .vmem => 6
  | .smem => 0
  | _ => 0

abbrev bufTy : (tb : Table) → Fin (tcTables nBuf tb) → BufTy
  | .hbm, ⟨0, _⟩ => ⟨S1600000x2, .i32⟩
  | .hbm, ⟨1, _⟩ => ⟨S1600000, .f32⟩
  | .hbm, ⟨2, _⟩ => ⟨S1600000x64, .f32⟩
  | .hbm, ⟨3, _⟩ => ⟨S100000x1, .f32⟩
  | .hbm, ⟨4, _⟩ => ⟨S1600000x1, .f32⟩
  | .hbm, ⟨5, _⟩ => ⟨S1600000x64, .f32⟩
  | .hbm, ⟨6, _⟩ => ⟨S1600000x64, .f32⟩
  | .hbm, ⟨7, _⟩ => ⟨S1600000x1, .i32⟩
  | .hbm, ⟨8, _⟩ => ⟨S1600000, .i32⟩
  | .hbm, ⟨9, _⟩ => ⟨S_, .f32⟩
  | .hbm, ⟨10, _⟩ => ⟨S100000x64, .f32⟩
  | .hbm, ⟨11, _⟩ => ⟨S1600000x1, .i32⟩
  | .hbm, ⟨12, _⟩ => ⟨S100000x64, .f32⟩
  | .hbm, ⟨13, _⟩ => ⟨S50000x128, .f32⟩
  | .hbm, ⟨14, _⟩ => ⟨S50000x2x1, .f32⟩
  | .hbm, ⟨15, _⟩ => ⟨S50000x2x64, .f32⟩
  | .hbm, ⟨16, _⟩ => ⟨S50000x128, .f32⟩
  | .hbm, ⟨17, _⟩ => ⟨S50000x128, .f32⟩
  | .hbm, ⟨18, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | _, _ => ⟨S1600000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  slices_S1600000x2_S1600000x1_0_0 : S1600000x2.Slices ![0, 0] S1600000x1
  shapeCasts_S1600000x1_S1600000 : S1600000x1.ShapeCasts S1600000
  bcast_S_S100000x64 : S_.BroadcastsInDim S100000x64 (![] : Fin 0 → Fin S100000x64.rank)
  shapeCasts_S100000x64_S50000x128 : S100000x64.ShapeCasts S50000x128
  shapeCasts_S100000x1_S50000x2x1 : S100000x1.ShapeCasts S50000x2x1
  bcast_S50000x2x1_S50000x2x64_0_1_2 : S50000x2x1.BroadcastsInDim S50000x2x64 (![0, 1, 2] : Fin 3 → Fin S50000x2x64.rank)
  shapeCasts_S50000x2x64_S50000x128 : S50000x2x64.ShapeCasts S50000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S50000x128_S100000x64 : S50000x128.ShapeCasts S100000x64
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .f32 = 32 ∨ (Rect.block (s := S50000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)

variable [Facts₀]

def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v8) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1600000x2 : Shape := ⟨2, ![1600000, 2]⟩
abbrev S1600000 : Shape := ⟨1, ![1600000]⟩
abbrev S1600000x64 : Shape := ⟨2, ![1600000, 64]⟩
abbrev S100000x1 : Shape := ⟨2, ![100000, 1]⟩
abbrev S1600000x1 : Shape := ⟨2, ![1600000, 1]⟩
abbrev S_ : Shape := ⟨0, ![]⟩
abbrev S100000x64 : Shape := ⟨2, ![100000, 64]⟩

abbrev nBuf : Space → Nat
  | .hbm => 15
  | .vmem => 0
  | .smem => 0
  | _ => 0

abbrev bufTy : (tb : Table) → Fin (tcTables nBuf tb) → BufTy
  | .hbm, ⟨0, _⟩ => ⟨S1600000x2, .i32⟩
  | .hbm, ⟨1, _⟩ => ⟨S1600000, .f32⟩
  | .hbm, ⟨2, _⟩ => ⟨S1600000x64, .f32⟩
  | .hbm, ⟨3, _⟩ => ⟨S100000x1, .f32⟩
  | .hbm, ⟨4, _⟩ => ⟨S1600000x1, .f32⟩
  | .hbm, ⟨5, _⟩ => ⟨S1600000x64, .f32⟩
  | .hbm, ⟨6, _⟩ => ⟨S1600000x64, .f32⟩
  | .hbm, ⟨7, _⟩ => ⟨S1600000x1, .i32⟩
  | .hbm, ⟨8, _⟩ => ⟨S1600000, .i32⟩
  | .hbm, ⟨9, _⟩ => ⟨S_, .f32⟩
  | .hbm, ⟨10, _⟩ => ⟨S100000x64, .f32⟩
  | .hbm, ⟨11, _⟩ => ⟨S1600000x1, .i32⟩
  | .hbm, ⟨12, _⟩ => ⟨S100000x64, .f32⟩
  | .hbm, ⟨13, _⟩ => ⟨S100000x64, .f32⟩
  | .hbm, ⟨14, _⟩ => ⟨S100000x64, .f32⟩
  | _, _ => ⟨S1600000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  slices_S1600000x2_S1600000x1_0_0 : S1600000x2.Slices ![0, 0] S1600000x1
  shapeCasts_S1600000x1_S1600000 : S1600000x1.ShapeCasts S1600000
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  scatter_S100000x64_S1600000x1_S1600000x64_1_0_0_1_wf : ScatterDims.WF S100000x64 S1600000x1 S1600000x64 [1] [0] [0] 1

variable [Facts₀]

def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.NodeNormalize.lean ====
/-
  The per-node normalisation, as one function of two arrays, and the law that the lane-dense arrangement computes it.

  A node array has 100000 rows of 64 channels; a degree array has one number per node. The normalised array divides
  every channel of node `n` by the degree of node `n`.

  The lane-dense arrangement folds two consecutive node rows into one row of 128 lanes: the flat position
  `64 n + ch` of channel `ch` of node `n` is position `128 (n / 2) + (64 (n % 2) + ch)`, row `n / 2`, lane
  `64 (n % 2) + ch`. The degrees are laid out to match: viewed as 50000 pairs, each of the pair's two degrees repeated
  over 64 channels, and the 2 x 64 block flattened to 128 lanes, so that lane `64 (n % 2) + ch` of row `n / 2` holds
  the degree of node `2 (n / 2) + n % 2 = n`. Dividing lane by lane and unfolding the rows again is therefore the
  per-node division. Nothing here is arithmetic on the extended reals: the law is about positions only, and holds
  for every quotient, finite or not.
-/
import Idealize.ShloMosaic.PureOps.Ideal
import Idealize.ShloMosaic.Lib.ValueIdx
import Idealize.ShloMosaic.Lib.Pipeline.Value

noncomputable section

namespace NodeNormalize

open Idealize.ShloMosaic Idealize.ShloMosaic.ValueIdx

/-- Nodes by channels. -/
abbrev SNodes : Shape := ⟨2, ![100000, 64]⟩
/-- One degree per node, kept as a column. -/
abbrev SDegree : Shape := ⟨2, ![100000, 1]⟩
/-- Two node rows per row of 128 lanes. -/
abbrev SLanes : Shape := ⟨2, ![50000, 128]⟩
/-- The degrees as pairs. -/
abbrev SPairs : Shape := ⟨3, ![50000, 2, 1]⟩
/-- The degrees as pairs, each repeated over the channels. -/
abbrev SPairsChan : Shape := ⟨3, ![50000, 2, 64]⟩

/-- The degree entry that belongs to an entry of the node array: the same node, the column's only position. -/
abbrev degreeOf (i : SNodes.Idx) : SDegree.Idx := ix2 (i 0) (0 : Fin 1)

/-- Every channel of every node divided by that node's degree. -/
def normalized (raw : SNodes.Idx → EReal) (deg : SDegree.Idx → EReal) : SNodes.Idx → EReal :=
  fun i => Ideal.div (raw i) (deg (degreeOf i))

/-- The lane-dense computation is the per-node division: fold the node array to 128 lanes, lay the degrees out
    pair by pair over the channels and fold them the same way, divide lane by lane, and unfold. -/
theorem laneDense_eq (raw : SNodes.Idx → EReal) (deg : SDegree.Idx → EReal)
    (hfold : SNodes.ShapeCasts SLanes) (hpairs : SDegree.ShapeCasts SPairs)
    (hrep : SPairs.BroadcastsInDim SPairsChan (![0, 1, 2] : Fin 3 → Fin SPairsChan.rank))
    (hflat : SPairsChan.ShapeCasts SLanes) (hunfold : SLanes.ShapeCasts SNodes) :
    shapeCast SNodes
        (fun k : SLanes.Idx => Ideal.div (shapeCast SLanes raw hfold k)
          (shapeCast SLanes (broadcastInDim SPairsChan ![0, 1, 2] hrep (shapeCast SPairs deg hpairs)) hflat k))
        hunfold
      = normalized raw deg := by
  funext i
  have hn : (i 0).val < 100000 := (i 0).isLt
  have hc : (i 1).val < 64 := (i 1).isLt
  -- the row and lane of entry `i`, and its pair, place in the pair and channel
  let k : SLanes.Idx := ix2 (⟨(i 0).val / 2, by omega⟩ : Fin 50000) (⟨64 * ((i 0).val % 2) + (i 1).val, by omega⟩ : Fin 128)
  let q : SPairsChan.Idx := ix3 (⟨(i 0).val / 2, by omega⟩ : Fin 50000) (⟨(i 0).val % 2, by omega⟩ : Fin 2) (⟨(i 1).val, hc⟩ : Fin 64)
  let p : SPairs.Idx := ix3 (⟨(i 0).val / 2, by omega⟩ : Fin 50000) (⟨(i 0).val % 2, by omega⟩ : Fin 2) (0 : Fin 1)
  have hk : (SLanes.rowMajor k).val = (SNodes.rowMajor i).val := by
    rewrite [Shape.rowMajor_val_two, Shape.rowMajor_val_two]
    show (i 0).val / 2 * 128 + (64 * ((i 0).val % 2) + (i 1).val) = (i 0).val * 64 + (i 1).val
    omega
  have hq : (SPairsChan.rowMajor q).val = (SLanes.rowMajor k).val := by
    rewrite [Shape.rowMajor_val_three, Shape.rowMajor_val_two]
    show ((i 0).val / 2 * 2 + (i 0).val % 2) * 64 + (i 1).val = (i 0).val / 2 * 128 + (64 * ((i 0).val % 2) + (i 1).val)
    omega
  have hp : (SDegree.rowMajor (degreeOf i)).val = (SPairs.rowMajor p).val := by
    rewrite [Shape.rowMajor_val_two, Shape.rowMajor_val_three]
    show (i 0).val * 1 + 0 = ((i 0).val / 2 * 2 + (i 0).val % 2) * 1 + 0
    omega
  refine (shapeCast_apply _ hunfold i k hk).trans ?_
  show Ideal.div (shapeCast SLanes raw hfold k)
      (shapeCast SLanes (broadcastInDim SPairsChan ![0, 1, 2] hrep (shapeCast SPairs deg hpairs)) hflat k)
    = Ideal.div (raw i) (deg (degreeOf i))
  rw [shapeCast_apply raw hfold k i hk.symm, shapeCast_apply _ hflat k q hq,
    broadcastInDim_apply _ hrep _ q p (fun a => match a with
      | ⟨0, _⟩ => by show (i 0).val / 2 = if (50000 : Nat) = 1 then 0 else (i 0).val / 2; rw [if_neg (by decide)]
      | ⟨1, _⟩ => by show (i 0).val % 2 = if (2 : Nat) = 1 then 0 else (i 0).val % 2; rw [if_neg (by decide)]
      | ⟨2, _⟩ => by show 0 = if (1 : Nat) = 1 then 0 else (i 1).val; rw [if_pos rfl]),
    shapeCast_apply deg hpairs p (degreeOf i) hp]

end NodeNormalize

end
-- ==== Proof.KernelValue.lean ====
/-
  What the idealized kernel program leaves in its result array, as one function of the argument arrays.

  Before the region the host adds the weighted edge rows up per source node (`segmentSum`), folds that node array
  to rows of 128 lanes, and lays the degrees out the same way. The region's grid has five points; point `t` reads
  rows `10000 t … 10000 t + 9999` of both folded arrays and writes back their lane-by-lane quotient to the same rows
  of the output. The five blocks tile the 50000 rows, so after the region the output array is the quotient of the two
  folded arrays everywhere. After the region the host unfolds the output to nodes by channels; by the positional law
  of `NodeNormalize` that array is every channel of every node divided by the node's degree.
-/
import proofs.«138290_j37031208026271_2_alg».proof.Proof.Gen.KernelIdeal.Frame
import proofs.«138290_j37031208026271_2_alg».proof.Proof.NodeNormalize
import Idealize.ShloMosaic.Lib.Pipeline.Value
import Idealize.ShloMosaic.Lib.StableHlo.Run

set_option maxRecDepth 16384

noncomputable section

namespace Cert.KernelIdeal.NodeValue

open Cert.KernelIdeal Cert.KernelIdeal.Gen Idealize.ShloMosaic Idealize.ShloMosaic.TcCoe Idealize.SL.Sem
open Idealize.ShloMosaic.StableHlo
open Idealize.ShloMosaic.Pipeline (Dat Cfg Window)

variable {F : FTy → Type} [FloatOps F]

/-- The weighted edge rows added up per source node: each edge's 64 values times the edge's weight, scattered
    with addition, from an array of zeros, to the row its first endpoint names. -/
def segmentSum (edges : (⟨S1600000x2, .i32⟩ : BufTy).Contents (Elt F)) (weights : (⟨S1600000, .f32⟩ : BufTy).Contents (Elt F))
    (vals : (⟨S1600000x64, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0
      (shapeCast _ (extractStridedSlice S1600000x1 ![0, 0] edges slices_S1600000x2_S1600000x1_0_0) shapeCasts_S1600000x1_S1600000))
    (mulf vals (broadcastInDim S1600000x64 ![0, 1] bcast_S1600000x1_S1600000x64_0_1
      (broadcastInDim S1600000x1 ![0] bcast_S1600000_S1600000x1_0 weights)))

variable (m : (ℓ : Loc nD τ sig) → Buf (Elt F) ℓ) (ρ : Dev nD → PrngReg)

/-- The first operand of the region: the per-node sums folded to 128 lanes. -/
theorem V_sums (c : Dev nD) :
    (V m c main_v8 : S50000x128.Idx → Elt F .f32)
      = shapeCast S50000x128 (segmentSum (F := F) (m ((c : Thread nD τ).loc main_arg0)) (m ((c : Thread nD τ).loc main_arg1)) (m ((c : Thread nD τ).loc main_arg2))) shapeCasts_S100000x64_S50000x128 := by
  show StableHlo.after hostOps0 (fun b => m (c, b)) (Proc.devRef .tc main_v8) = _
  after_results
  rfl

/-- The second operand of the region: the degrees as pairs, repeated over the channels, folded to 128 lanes. -/
theorem V_degrees (c : Dev nD) :
    (V m c main_v11 : S50000x128.Idx → Elt F .f32)
      = shapeCast S50000x128 (broadcastInDim S50000x2x64 ![0, 1, 2] bcast_S50000x2x1_S50000x2x64_0_1_2
          (shapeCast S50000x2x1 (m ((c : Thread nD τ).loc main_arg3)) shapeCasts_S100000x1_S50000x2x1)) shapeCasts_S50000x2x64_S50000x128 := by
  show StableHlo.after hostOps0 (fun b => m (c, b)) (Proc.devRef .tc main_v11) = _
  after_results
  rfl

/-! ## The region: five blocks of rows, each the lane-by-lane quotient of the operands' blocks -/

/-- The lane-by-lane quotient of two folded arrays. -/
abbrev laneQuot (a0 a1 : S50000x128.Idx → Elt F .f32) : S50000x128.Idx → Elt F .f32 := fun i => FloatOps.divf (a0 i) (a1 i)

theorem origin : (![0, 0] : Fin 2 → Nat) = fun _ => 0 := funext fun a => by fin_cases a <;> rfl

/-- The body's stored value is the quotient of the two loaded blocks (the casts in between keep the shape). -/
theorem stored_eq (x0 x1 : Vec F S10000x128 .f32) : k0_pay1 x0 x1 = divf x0 x1 := by
  unfold k0_pay1
  simp only [shapeCast_self]

/-- At every grid point the three windows sit on the same block of rows, one of the five, and on the only block of lanes. -/
theorem same_block : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 4 ∧ win0_2.index t (1 : Fin 2) = 0 :=
  (by decide +kernel : ∀ t : Fin grid0.N, _)

/-- Each of the five blocks of rows is some point's. -/
theorem every_block : ∀ q : Fin 5, ∃ t : Fin cfg0.N, win0_2.index t = ![q.val, 0] :=
  (by decide +kernel : ∀ q : Fin 5, ∃ t : Fin grid0.N, win0_2.index t = ![q.val, 0])

/-- What point `t` writes back is block `t` of the quotient of the two folded arrays. -/
theorem flushed_eq (c : Dev nD) (t : Fin cfg0.N) :
    (dats m 0 c).flushed 2 t = ((cfg0.win 2).blk t).view.read (Elt F) (laneQuot (V m c main_v8) (V m c main_v11)) := by
  show (cfg0.win 2).cut (grid0.coords t) ((dats m 0 c).after 2 t) = _
  rw [after0_2]
  unfold out0_2
  rw [View.canon_unit_zero origin]
  simp only [View.ld_unit_zero (S := S10000x128) origin]
  rw [stored_eq]
  obtain ⟨e0, e1, e2, e3, e4, e5⟩ := same_block t
  funext j
  show FloatOps.divf (V m c main_v8 (((cfg0.win 0).blk t).view.emb j)) (V m c main_v11 (((cfg0.win 1).blk t).view.emb j))
    = FloatOps.divf (V m c main_v8 (((cfg0.win 2).blk t).view.emb j)) (V m c main_v11 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 128 + 1 * (j 1).val = win0_2.index t (1 : Fin 2) * 128 + 1 * (j 1).val; omega
  rw [h0, h1]

/-- A position of the output array is in point `t`'s block iff each coordinate is in the block's range. -/
theorem mem_block (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v12).slice (win0_2.rect t)).set ↔ _
  rw [View.set_slice_whole, Rect.mem_set_unit]
  exact Iff.rfl

/-- The five blocks tile the rows: row `r` is in the block of the point at block index `r / 10000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := every_block ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region: the quotient of the two folded arrays, everywhere. -/
theorem region_result (c : Dev nD) :
    (dats m 0 c).arrAt 2 cfg0.N = laneQuot (V m c main_v8) (V m c main_v11) :=
  (dats m 0 c).arrAt_eq_of_cover 2 _ (fun t _ => flushed_eq m c t) covered

/-! ## After the region: the output unfolded to nodes by channels -/

theorem unfolded (c : Dev nD) :
    (Pipeline.afterTail₀ cfgs (dats m) 0 (V0 m) [hostOps1] c main_v13 : S100000x64.Idx → Elt F .f32)
      = shapeCast S100000x64 (laneQuot (V m c main_v8) (V m c main_v11)) shapeCasts_S50000x128_S100000x64 := by
  unfold Pipeline.afterTail₀
  show StableHlo.after hostOps1 _ (Proc.devRef .tc main_v13) = _
  after_results
  have key : Pipeline.withArrays (cfgs 0).spec c (V0 m c) (fun w => (dats m 0 c).arrAt w (cfgs 0).N) (Proc.tc.devRef main_v12)
      = laneQuot (V m c main_v8) (V m c main_v11) :=
    (Pipeline.withArrays_arr spec0 launch0.win.arr_inj c _ _ 2).trans (region_result m c)
  rw [key]
  rfl

end Cert.KernelIdeal.NodeValue

end
-- ==== Proof.KernelRun.lean ====
/-
  The idealized kernel program's run, read on the extended reals: its first result is every channel of every node's
  weighted edge sum divided by the node's degree, its second result the edge values it was given.
-/
import proofs.«138290_j37031208026271_2_alg».proof.Proof.KernelValue

set_option maxRecDepth 16384

noncomputable section

namespace Cert.KernelIdeal.NodeValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The array the host unfolds after the region is the per-node normalisation of the segment sums: the region's
    output is the lane-by-lane quotient of the folded sums and the folded degrees, and unfolding that quotient is
    dividing node by node. -/
theorem result_eq (c : Dev nD) :
    (Pipeline.afterTail₀ cfgs (dats m) 0 (V0 m) [hostOps1] c main_v13 : S100000x64.Idx → EReal)
      = NodeNormalize.normalized
          (segmentSum (F := Ideal) (m ((c : Thread nD τ).loc main_arg0)) (m ((c : Thread nD τ).loc main_arg1)) (m ((c : Thread nD τ).loc main_arg2)))
          (m ((c : Thread nD τ).loc main_arg3)) := by
  rw [unfolded, V_sums, V_degrees]
  exact NodeNormalize.laneDense_eq _ _ _ _ _ _ _

/-- Every weakly fair execution of the program terminates with the first result at the normalised segment sums, the
    second at the edge values, and the four arguments as they were. -/
theorem run : θ_run defs (onTc (τ := τ) (main (F := Ideal))) ⟨m, fun _ => 0, ρ⟩ fun r => ∀ c : Dev nD,
      r.2.mem ((c.tc : Thread nD τ).loc main_v13)
        = NodeNormalize.normalized
            (segmentSum (F := Ideal) (m ((c : Thread nD τ).loc main_arg0)) (m ((c : Thread nD τ).loc main_arg1)) (m ((c : Thread nD τ).loc main_arg2)))
            (m ((c : Thread nD τ).loc main_arg3))
      ∧ r.2.mem ((c.tc : Thread nD τ).loc main_arg2) = m ((c.tc : Thread nD τ).loc main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v13 (Pipeline.mem_restRefs_of main_v13 (by decide) (by decide))).trans (result_eq m c),
      ((h c).2 main_arg2 (Pipeline.mem_restRefs_of main_arg2 (by decide) (by decide))).trans (W_main_arg2 m (dats m) c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.NodeValue

end
-- ==== Proof.ReferenceValue.lean ====
/-
  The idealized reference program's first result, read on the extended reals: its segment sums divided, node by node,
  by the node's degree. The reference repeats each degree over the 64 channels and divides entry by entry; at an
  entry of node `n` the repeated array holds the degree of node `n`.
-/
import proofs.«138290_j37031208026271_2_alg».proof.Proof.Gen.ReferenceIdeal.Read
import proofs.«138290_j37031208026271_2_alg».proof.Proof.NodeNormalize

noncomputable section

namespace Cert.ReferenceIdeal.NodeValue

open Cert.ReferenceIdeal Idealize.ShloMosaic Idealize.ShloMosaic.ValueIdx

/-- The reference's quotient is the per-node normalisation of its own segment sums. -/
theorem result_eq (edges : (⟨S1600000x2, .i32⟩ : BufTy).Contents (Elt Ideal)) (weights : (⟨S1600000, .f32⟩ : BufTy).Contents (Elt Ideal))
    (vals : (⟨S1600000x64, .f32⟩ : BufTy).Contents (Elt Ideal)) (deg : (⟨S100000x1, .f32⟩ : BufTy).Contents (Elt Ideal)) :
    (Read.val_main_v9 (F := Ideal) edges weights vals deg : S100000x64.Idx → EReal)
      = NodeNormalize.normalized (Read.val_main_v7 (F := Ideal) edges weights vals) deg := by
  funext i
  have e : Read.idx_main_v8 i = NodeNormalize.degreeOf i :=
    funext fun a => Fin.ext (by match a with | ⟨0, _⟩ => rfl | ⟨1, _⟩ => rfl)
  rw [Read.val_main_v9_apply, Read.val_main_v8_apply, e]
  rfl

end Cert.ReferenceIdeal.NodeValue

end
-- ==== Proof.lean ====
/-
  A graph's per-node normalised message sums, computed two ways.

  Both programs weight each of the 1600000 edges' 64 values by the edge's weight and add the weighted rows up per
  source node (the same scatter-with-addition from zeros, written operation for operation alike in the two
  programs). They differ in how they divide the 100000 x 64 array of sums by the nodes' degrees. The reference repeats
  each degree over the 64 channels and divides entry by entry. The kernel program folds two consecutive node rows into
  one row of 128 lanes, lays the degrees out to match, divides lane by lane in five blocks of 10000 rows, and unfolds
  the result. On the extended reals both arrays hold, at channel `ch` of node `n`, the sum at that entry divided by
  the degree of node `n` (`NodeNormalize.normalized`): the kernel side by the positional law
  `NodeNormalize.laneDense_eq` (`KernelValue`, `KernelRun`), the reference side by reading its broadcast at an
  entry (`ReferenceValue`). No property of the quotient is used, so the inputs' finiteness is never opened. The second
  result of both programs is the array of edge values they were given.

  The idealized kernel program is the kernel program's own text read on the extended reals: no operation was
  rewritten, and the claim relating the two is the trivial one.
-/
import proofs.«138290_j37031208026271_2_alg».proof.Defs
import proofs.«138290_j37031208026271_2_alg».proof.Proof.Gen.Kernel
import proofs.«138290_j37031208026271_2_alg».proof.Proof.Gen.Kernel.Skeleton
import proofs.«138290_j37031208026271_2_alg».proof.Proof.Gen.Kernel.Launch
import proofs.«138290_j37031208026271_2_alg».proof.Proof.Gen.Kernel.Points
import proofs.«138290_j37031208026271_2_alg».proof.Proof.Gen.Kernel.Frame
import proofs.«138290_j37031208026271_2_alg».proof.Proof.Gen.KernelIdeal
import proofs.«138290_j37031208026271_2_alg».proof.Proof.Gen.KernelIdeal.Skeleton
import proofs.«138290_j37031208026271_2_alg».proof.Proof.Gen.KernelIdeal.Launch
import proofs.«138290_j37031208026271_2_alg».proof.Proof.Gen.KernelIdeal.Points
import proofs.«138290_j37031208026271_2_alg».proof.Proof.Gen.KernelIdeal.Frame
import proofs.«138290_j37031208026271_2_alg».proof.Proof.Gen.ReferenceIdeal
import proofs.«138290_j37031208026271_2_alg».proof.Proof.Gen.ReferenceIdeal.Run
import proofs.«138290_j37031208026271_2_alg».proof.Proof.Gen.ReferenceIdeal.Read
import proofs.«138290_j37031208026271_2_alg».proof.Proof.Gen.Pre_finite_inputs
import proofs.«138290_j37031208026271_2_alg».proof.Proof.KernelRun
import proofs.«138290_j37031208026271_2_alg».proof.Proof.ReferenceValue
import Idealize.ShloMosaic.Adequacy
import Idealize.ShloMosaic.Init

noncomputable section

namespace Cert.Proof

open Idealize.ShloMosaic Idealize.ShloMosaic.TcCoe Idealize.SL.Sem

/-- The two programs' segment sums are one function of the edges, the weights and the edge values: the same
    operations with the same dimension numbers, in the same order. -/
theorem segmentSum_eq (edges : (⟨Cert.KernelIdeal.S1600000x2, .i32⟩ : BufTy).Contents (Elt Ideal))
    (weights : (⟨Cert.KernelIdeal.S1600000, .f32⟩ : BufTy).Contents (Elt Ideal))
    (vals : (⟨Cert.KernelIdeal.S1600000x64, .f32⟩ : BufTy).Contents (Elt Ideal)) :
    Cert.ReferenceIdeal.Read.val_main_v7 (F := Ideal) edges weights vals
      = Cert.KernelIdeal.NodeValue.segmentSum (F := Ideal) edges weights vals := rfl

theorem frame_kernel : Cert.frame_Kernel := fun m ρ _ => Cert.Kernel.Gen.frame m ρ
theorem frame_kernelIdeal : Cert.frame_KernelIdeal := fun m ρ _ => Cert.KernelIdeal.Gen.frame m ρ
/-- The reference has no region: its frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the four arguments both programs end with the normalised segment sums of those
    arguments as first result and the edge values as second. -/
theorem algebraic : Cert.algebraic_KernelIdeal_ReferenceIdeal := by
  intro m ρ m' ρ' _ hagree
  refine ⟨_, _, Cert.KernelIdeal.NodeValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v9_eq, Cert.ReferenceIdeal.NodeValue.result_eq, segmentSum_eq,
      (hagree c).1, (hagree c).2.1, (hagree c).2.2.1, (hagree c).2.2.2]
  · exact (hagree c).2.2.1

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
